-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel

variable [Facts]

def fn {F : FTy → Type} [FloatOps F] (main_arg0 : FVec F S4096x32000 .f32) (main_arg1 : FVec F S4096x32000 .f32) (main_arg2 : IVec S4096 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_v4 : FVec F S4096x32000 .f32 := Host.absf main_arg1
  let main_cst_0 : FVec F S_ .f32 := constant S_ .f32 0x7F800000#32
  let main_v5 : FVec F S4096x32000 .f32 := broadcastInDim S4096x32000 ![] bcast_S_S4096x32000 main_cst_0
  let main_v6 : IVec S4096x32000 1 := cmpf .olt main_v4 main_v5
  let main_c_1 : IVec S_ 1 := constantI S_ 1 1#1
  let main_v7 : IVec S_ 1 := (fun x v => Host.reduce IntOp.andi x v reducesTo_S4096x32000_S_d0_1 h_S_) main_v6 main_c_1
  let main_v8 : IVec S_ 1 := andi main_v3 main_v7
  main_v8
-- ==== Kernel.lean ====
abbrev S4096x32000 : Shape := ⟨2, ![4096, 32000]⟩
abbrev S4096 : Shape := ⟨1, ![4096]⟩
abbrev S4096x1 : Shape := ⟨2, ![4096, 1]⟩
abbrev S256x6400 : Shape := ⟨2, ![256, 6400]⟩
abbrev S256x1 : Shape := ⟨2, ![256, 1]⟩
abbrev S256x1280 : Shape := ⟨2, ![256, 1280]⟩
abbrev S256 : Shape := ⟨1, ![256]⟩
abbrev S_ : Shape := ⟨0, ![]⟩

abbrev nBuf : Space → Nat
  | .hbm => 26
  | .vmem => 6
  | .smem => 0
  | _ => 0

abbrev bufTy : (tb : Table) → Fin (tcTables nBuf tb) → BufTy
  | .hbm, ⟨0, _⟩ => ⟨S4096x32000, .f32⟩
  | .hbm, ⟨1, _⟩ => ⟨S4096x32000, .f32⟩
  | .hbm, ⟨2, _⟩ => ⟨S4096, .i32⟩
  | .hbm, ⟨3, _⟩ => ⟨S4096x1, .f32⟩
  | .hbm, ⟨4, _⟩ => ⟨S4096, .f32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096, .i32⟩
  | .hbm, ⟨13, _⟩ => ⟨S_, .i32⟩
  | .hbm, ⟨14, _⟩ => ⟨S_, .i32⟩
  | .hbm, ⟨15, _⟩ => ⟨S_, .f32⟩
  | .hbm, ⟨16, _⟩ => ⟨S_, .f32⟩
  | .hbm, ⟨17, _⟩ => ⟨S_, .i1⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S256x6400, .f32⟩
  | .local _ .vmem, ⟨1, _⟩ => ⟨S256x6400, .f32⟩
  | .local _ .vmem, ⟨2, _⟩ => ⟨S256x6400, .f32⟩
  | .local _ .vmem, ⟨3, _⟩ => ⟨S256x6400, .f32⟩
  | .local _ .vmem, ⟨4, _⟩ => ⟨S256x1, .f32⟩
  | .local _ .vmem, ⟨5, _⟩ => ⟨S256x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_call1_v0 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def k0_mult1 : BitVec 32 :=
  let c0_i32_1 : BitVec 32 := 0#32
  let c1280_i32 : BitVec 32 := 1280#32
  let v4 : BitVec 32 := Scalar.muli c0_i32_1 c1280_i32
  v4
def k0_off1 (c0_i32_1 : BitVec 32) : Fin 2 → Nat :=
  let c0 : Index := 0#32
  let c1280_i32 : BitVec 32 := 1280#32
  let v4 : BitVec 32 := Scalar.muli c0_i32_1 c1280_i32
  let v5 : BitVec 32 := v4
  let v6 : Index := Scalar.indexCast v5
  ![0, v6.toNat]
def k0_mult2 : BitVec 32 :=
  let c1_i32 : BitVec 32 := 1#32
  let c1280_i32_6 : BitVec 32 := 1280#32
  let v26 : BitVec 32 := Scalar.muli c1_i32 c1280_i32_6
  v26
def k0_mult3 : BitVec 32 :=
  let c2_i32 : BitVec 32 := 2#32
  let c1280_i32_12 : BitVec 32 := 1280#32
  let v48 : BitVec 32 := Scalar.muli c2_i32 c1280_i32_12
  v48
def k0_mult4 : BitVec 32 :=
  let c3_i32 : BitVec 32 := 3#32
  let c1280_i32_18 : BitVec 32 := 1280#32
  let v70 : BitVec 32 := Scalar.muli c3_i32 c1280_i32_18
  v70
def k0_mult5 : BitVec 32 :=
  let c4_i32 : BitVec 32 := 4#32
  let c1280_i32_24 : BitVec 32 := 1280#32
  let v92 : BitVec 32 := Scalar.muli c4_i32 c1280_i32_24
  v92
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x1_S256x1_0_0 : ∀ a, (![0, 0] : Fin 2 → Nat) a + S256x1.size a ≤ S256x1.size a
  h_S256x1 : 0 < S256x1.numel
  h_S256x1280 : 0 < S256x1280.numel
  reduces_S256x1280_S256 : S256x1280.Reduces [1] S256
  shapeCasts_S256_S256x1 : S256.ShapeCasts S256x1
  shapeCasts_S256x1_S256x1 : S256x1.ShapeCasts S256x1
  shapeCasts_S4096x1_S4096 : S4096x1.ShapeCasts S4096
  bcast_S_S4096 : S_.BroadcastsInDim S4096 (![] : Fin 0 → Fin S4096.rank)
  natLt_1_32 : 1 < 32
  reducesTo_S4096_S_d0 : S4096.ReducesTo [0] S_
  h_S_ : 0 < S_.numel
  hrank0 : 0 < grid0.rank
  k0_mult1_dvd : 1280 ∣ k0_mult1.toNat
  k0_off1_inb : ∀ (r : Fin 5), ∀ a, (k0_off1 (BitVec.ofNat 32 r.val)) a + S256x1280.size a ≤ S256x6400.size a
  k0_mult2_dvd : 1280 ∣ k0_mult2.toNat
  k0_mult3_dvd : 1280 ∣ k0_mult3.toNat
  k0_mult4_dvd : 1280 ∣ k0_mult4.toNat
  k0_mult5_dvd : 1280 ∣ k0_mult5.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x6400.size a ≤ S4096x32000.size a
  hwx0_0 : ∀ i : grid0.Coords, EltTy.bits .f32 = 32 ∨ (Rect.block (s := S4096x32000) S256x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x6400.size a ≤ S4096x32000.size a
  hwx0_1 : ∀ i : grid0.Coords, EltTy.bits .f32 = 32 ∨ (Rect.block (s := S4096x32000) S256x6400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)

variable [Facts₀]

abbrev win0_0 : Pipeline.Window sig grid0 :=
  Pipeline.Window.ofSpec (Memref.whole main_arg0) S256x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x6400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096x32000, .f32⟩
  | .hbm, ⟨2, _⟩ => ⟨S4096, .i32⟩
  | .hbm, ⟨3, _⟩ => ⟨S4096x32000, .f32⟩
  | .hbm, ⟨4, _⟩ => ⟨S4096x32000, .f32⟩
  | .hbm, ⟨5, _⟩ => ⟨S4096x32000, .f32⟩
  | .hbm, ⟨6, _⟩ => ⟨S_, .f32⟩
  | .hbm, ⟨7, _⟩ => ⟨S4096x32000, .f32⟩
  | .hbm, ⟨8, _⟩ => ⟨S4096x32000, .f32⟩
  | .hbm, ⟨9, _⟩ => ⟨S4096x32000, .f32⟩
  | .hbm, ⟨10, _⟩ => ⟨S4096x32000, .f32⟩
  | .hbm, ⟨11, _⟩ => ⟨S4096x32000, .f32⟩
  | .hbm, ⟨12, _⟩ => ⟨S4096x32000, .f32⟩
  | .hbm, ⟨13, _⟩ => ⟨S_, .f32⟩
  | .hbm, ⟨14, _⟩ => ⟨S4096, .f32⟩
  | .hbm, ⟨15, _⟩ => ⟨S4096x32000, .f32⟩
  | .hbm, ⟨16, _⟩ => ⟨S4096x32000, .f32⟩
  | .hbm, ⟨17, _⟩ => ⟨S_, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096, .i32⟩
  | .hbm, ⟨34, _⟩ => ⟨S_, .i32⟩
  | .hbm, ⟨35, _⟩ => ⟨S_, .i32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_call1_v0 : Ref sig .tc := ⟨.hbm, 45, rfl⟩
abbrev main_v28 : Ref sig .tc := ⟨.hbm, 46, rfl⟩

abbrev nD : Nat := 1
abbrev τ : Topo := Topo.v7x

variable {F : FTy → Type} [FloatOps F]

class Facts₀ : Prop where
  bcast_S_S4096x32000 : S_.BroadcastsInDim S4096x32000 (![] : Fin 0 → Fin S4096x32000.rank)
  reducesTo_S4096x32000_S4096_d1 : S4096x32000.ReducesTo [1] S4096
  h_S_ : 0 < S_.numel
  bcast_S_S4096 : S_.BroadcastsInDim S4096 (![] : Fin 0 → Fin S4096.rank)
  natLt_1_32 : 1 < 32
  reducesTo_S4096_S_d0 : S4096.ReducesTo [0] S_

variable [Facts₀]

class Facts : Prop extends Facts₀ where

variable [Facts]
-- ==== Proof.JsdReal.lean ====
/-
  The Jensen–Shannon entry and its row sum, over the reals and over the extended reals.

  For one vocabulary entry write `a` for the log-probability of q and `b` for that of p, so q = exp a, p = exp b,
  and let m = (p + q)/2 be the midpoint of the two probabilities.  Two spellings of the entry's loss:

    fused     (p·b + q·a)/2 − m·log m
    two-term  (1/2)·p·(b − log m') + (1/2)·q·(a − log m'),   m' = q + (p − q)/2

  They are one real number: m' = m, and the products distribute.  Distributivity fails on the extended reals at
  the infinities, so the identity is stated for REAL a and b; the extended-real expressions (in which a float
  program's operations are read) are then shown to be the inclusions of the real ones — exp of a real is a positive
  real, so m is positive and log m is a real.  Summed over any finite index set, with the factor 1/2 pulled out of
  the two sums:   Σ fused = (1/2)·(0 + Σ p·(b − log m')) + (1/2)·(0 + Σ q·(a − log m')).
-/
import Idealize.ShloMosaic.PureOps.Ideal
import Idealize.ShloMosaic.PureOps.Ideal.Laws
import Mathlib.Analysis.SpecialFunctions.Log.Basic

noncomputable section

open scoped BigOperators

namespace Jsd

open Idealize.ShloMosaic

/-! ## Over the reals -/

/-- The midpoint of the two probabilities. -/
def mid (a b : ℝ) : ℝ := (1 / 2 : ℝ) * (Real.exp b + Real.exp a)

theorem mid_pos (a b : ℝ) : 0 < mid a b := by unfold mid; positivity

/-- The midpoint spelt as an interpolation from q towards p. -/
theorem lerp_eq_mid (a b : ℝ) : Real.exp a + (1 / 2 : ℝ) * (Real.exp b - Real.exp a) = mid a b := by
  unfold mid; ring

/-- The fused entry. -/
def fused (a b : ℝ) : ℝ := (1 / 2 : ℝ) * (Real.exp b * b + Real.exp a * a) - mid a b * Real.log (mid a b)

/-- p's divergence term from the midpoint, and q's. -/
def termP (a b : ℝ) : ℝ := Real.exp b * (b - Real.log (mid a b))
def termQ (a b : ℝ) : ℝ := Real.exp a * (a - Real.log (mid a b))

/-- The entry law: the fused entry is half of p's term plus half of q's. -/
theorem fused_eq (a b : ℝ) : fused a b = (1 / 2 : ℝ) * termP a b + (1 / 2 : ℝ) * termQ a b := by
  unfold fused termP termQ mid; ring

/-- Summed over a finite index set, the halves pulled out of the sums. -/
theorem sum_fused_eq {ι : Type*} (s : Finset ι) (a b : ι → ℝ) :
    ∑ k ∈ s, fused (a k) (b k) = (1 / 2 : ℝ) * (0 + ∑ k ∈ s, termP (a k) (b k)) + (1 / 2 : ℝ) * (0 + ∑ k ∈ s, termQ (a k) (b k)) := by
  rw [zero_add, zero_add, Finset.mul_sum, Finset.mul_sum, ← Finset.sum_add_distrib]
  exact Finset.sum_congr rfl fun k _ => fused_eq (a k) (b k)

/-! ## Over the extended reals -/

/-- The float word 0x3F000000 is one half. -/
theorem half_eq : Ideal.ofBits .f32 0x3F000000#32 = ((1 / 2 : ℝ) : EReal) := by
  simp [Ideal.ofBits, Ideal.ieee, -EReal.coe_mul]; norm_num

/-- The fused entry in extended-real operations, in the order a float program performs them: with p = exp b and
    q = exp a,  half·(p·b + q·a) − (half·(p + q))·log (half·(p + q)). -/
def fusedE (a b : EReal) : EReal :=
  Ideal.ofBits .f32 0x3F000000#32 * (Ideal.exp b * b + Ideal.exp a * a)
    - (Ideal.ofBits .f32 0x3F000000#32 * (Ideal.exp b + Ideal.exp a))
      * Ideal.log (Ideal.ofBits .f32 0x3F000000#32 * (Ideal.exp b + Ideal.exp a))

/-- p's term in extended-real operations, the midpoint spelt q + half·(p − q); and q's. -/
def termPE (a b : EReal) : EReal :=
  Ideal.exp b * (b - Ideal.log (Ideal.exp a + Ideal.ofBits .f32 0x3F000000#32 * (Ideal.exp b - Ideal.exp a)))
def termQE (a b : EReal) : EReal :=
  Ideal.exp a * (a - Ideal.log (Ideal.exp a + Ideal.ofBits .f32 0x3F000000#32 * (Ideal.exp b - Ideal.exp a)))

/-- The logarithm of a positive real, on the extended reals, is the real logarithm. -/
theorem log_coe_of_pos {r : ℝ} (h : 0 < r) : Ideal.log (r : EReal) = (Real.log r : EReal) := by
  rw [Ideal.log_coe, if_neg (not_le.mpr h)]

/-- On real arguments the extended-real fused entry is the real one. -/
theorem fusedE_coe (a b : ℝ) : fusedE (a : EReal) (b : EReal) = (fused a b : EReal) := by
  unfold fusedE fused
  rw [half_eq, Ideal.exp_coe, Ideal.exp_coe, ← EReal.coe_mul, ← EReal.coe_mul, ← EReal.coe_add, ← EReal.coe_add,
    ← EReal.coe_mul, ← EReal.coe_mul]
  rw [show (1 / 2 : ℝ) * (Real.exp b + Real.exp a) = mid a b from rfl, log_coe_of_pos (mid_pos a b),
    ← EReal.coe_mul, ← EReal.coe_sub]

/-- On real arguments p's extended-real term is the real one, -/
theorem termPE_coe (a b : ℝ) : termPE (a : EReal) (b : EReal) = (termP a b : EReal) := by
  unfold termPE termP
  rw [half_eq, Ideal.exp_coe, Ideal.exp_coe, ← EReal.coe_sub, ← EReal.coe_mul, ← EReal.coe_add, lerp_eq_mid,
    log_coe_of_pos (mid_pos a b), ← EReal.coe_sub, ← EReal.coe_mul]

/-- and q's. -/
theorem termQE_coe (a b : ℝ) : termQE (a : EReal) (b : EReal) = (termQ a b : EReal) := by
  unfold termQE termQ
  rw [half_eq, Ideal.exp_coe, Ideal.exp_coe, ← EReal.coe_sub, ← EReal.coe_mul, ← EReal.coe_add, lerp_eq_mid,
    log_coe_of_pos (mid_pos a b), ← EReal.coe_sub, ← EReal.coe_mul]

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- THE ROW LAW. For real log-probabilities along a row, the sum of the fused entries is one half of (zero plus the
    sum of p's terms) plus one half of (zero plus the sum of q's terms), the zero and the half being the float words. -/
theorem row_law {ι : Type*} (s : Finset ι) (a b : ι → ℝ) :
    ∑ k ∈ s, fusedE (a k : EReal) (b k : EReal)
      = Ideal.ofBits .f32 0x3F000000#32 * (Ideal.ofBits .f32 0x00000000#32 + ∑ k ∈ s, termPE (a k : EReal) (b k : EReal))
        + Ideal.ofBits .f32 0x3F000000#32 * (Ideal.ofBits .f32 0x00000000#32 + ∑ k ∈ s, termQE (a k : EReal) (b k : EReal)) := by
  simp only [fusedE_coe, termPE_coe, termQE_coe]
  rw [← coe_sum, ← coe_sum, ← coe_sum, half_eq, Ideal.ofBits_zero_f32, ← EReal.coe_zero, ← EReal.coe_add, ← EReal.coe_add,
    ← EReal.coe_mul, ← EReal.coe_mul, ← EReal.coe_add, sum_fused_eq]

end Jsd

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.KerPayload.lean ====
/-
  The body's stored block, read at an entry, at the exact instance.

  At one grid point the body takes the two [256, 6400] input blocks in five column sub-slices of 1280 lanes.  For each
  sub-slice it forms, entry by entry, the fused Jensen–Shannon entry of the two log-probabilities, sums it along the
  lanes to a [256] vector viewed as a [256, 1] column, and adds the five columns one after the other to a zero column;
  what it stores is the block it found in the output's staging buffer plus that total.  So row r of the stored column
  is the found entry plus  ((((0 + σ₀) + σ₁) + σ₂) + σ₃) + σ₄,  σⱼ the lane sum of the fused entries of sub-slice j.
-/
import proofs.«101492_j29892972380471_2_alg».proof.Proof.Gen.KernelIdeal.Skeleton
import proofs.«101492_j29892972380471_2_alg».proof.Proof.JsdReal
import proofs.«101492_j29892972380471_2_alg».proof.Proof.LibColumn
import Idealize.ShloMosaic.PureOps.Ideal.Laws
import Idealize.ShloMosaic.Lib.Pipeline.Value
import Idealize.ShloMosaic.Lib.ValueIdx

noncomputable section

open scoped BigOperators

namespace Cert.KernelIdeal.KerValue

open Cert.KernelIdeal Cert.KernelIdeal.Gen Idealize.ShloMosaic Idealize.ShloMosaic.ValueIdx

/-! ## Generic in the float instance: the stored block as one term of the ten sub-slices and the found block -/

/-- What the body stores, from the five pairs of sub-slices (first of each pair from the first input block, log q;
    second from the second, log p) and the block found in the output's buffer: the payloads composed as the body
    composes them. -/
def blockPay {F : FTy → Type} [FloatOps F] (q0 p0 q1 p1 q2 p2 q3 p3 q4 p4 : Vec F S256x1280 .f32) (xo : Vec F S256x1 .f32) :
    FVec F S256x1 .f32 :=
  k0_pay1 (k0_pay9 (k0_pay3 q0 p0) (k0_pay6 q1 p1) (k0_pay7 q1 p1) (k0_pay8 q1 p1) (FloatOps.ofBits .f32 0x3F000000#32) q2 p2)
    (k0_pay12 q3 p3) (k0_pay13 q3 p3) (k0_pay14 q3 p3) q4 p4 xo

/-! ## At the exact instance -/

/-- The fused entries of one pair of sub-slices. -/
def entries (q p : Vec Ideal S256x1280 .f32) : FVec Ideal S256x1280 .f32 := fun j => Jsd.fusedE (q j) (p j)

/-- A [256, 1280] array summed along its lanes, as the [256, 1] column the body forms. -/
def lane (e : FVec Ideal S256x1280 .f32) : FVec Ideal S256x1 .f32 :=
  shapeCast S256x1 (multiReduction .add [1] S256 e 0x00000000#32 reduces_S256x1280_S256 (.inl rfl) rfl) shapeCasts_S256_S256x1

/-- Row r of that column is the sum over the 1280 lanes of row r. -/
theorem lane_apply (e : FVec Ideal S256x1280 .f32) (r : Fin 256) (u : Fin 1) :
    lane e (ix2 r u) = ∑ l : Fin 1280, e (ix2 r l) := by
  unfold lane
  refine (Cert.Lib.shapeCast_a_a1_apply _ shapeCasts_S256_S256x1 r u).trans ?_
  refine (Ideal.multiReduction_add_single e 0x00000000#32 reduces_S256x1280_S256 (.inl rfl) rfl (ix1 r)).trans ?_
  refine Finset.sum_congr rfl fun l _ => congrArg e ?_
  funext c
  apply Fin.ext
  match c with
  | ⟨0, _⟩ => rfl
  | ⟨1, _⟩ => rfl

/-- The stored block is the found block (through the body's identity cast) plus the five lane sums added in order to
    a zero column. -/
theorem blockPay_eq (q0 p0 q1 p1 q2 p2 q3 p3 q4 p4 : Vec Ideal S256x1280 .f32) (xo : Vec Ideal S256x1 .f32) :
    blockPay q0 p0 q1 p1 q2 p2 q3 p3 q4 p4 xo
      = fun i => shapeCast S256x1 xo shapeCasts_S256x1_S256x1 i
          + (((((Ideal.ofBits .f32 0x00000000#32 + lane (entries q0 p0) i) + lane (entries q1 p1) i) + lane (entries q2 p2) i)
              + lane (entries q3 p3) i) + lane (entries q4 p4) i) := rfl

/-- Row r of the stored column: the found entry plus the five lane sums of fused entries, added in order to zero. -/
theorem blockPay_apply (q0 p0 q1 p1 q2 p2 q3 p3 q4 p4 : Vec Ideal S256x1280 .f32) (xo : Vec Ideal S256x1 .f32) (r : Fin 256) (u : Fin 1) :
    blockPay q0 p0 q1 p1 q2 p2 q3 p3 q4 p4 xo (ix2 r u)
      = xo (ix2 r u)
        + (((((Ideal.ofBits .f32 0x00000000#32 + ∑ l : Fin 1280, Jsd.fusedE (q0 (ix2 r l)) (p0 (ix2 r l)))
            + ∑ l : Fin 1280, Jsd.fusedE (q1 (ix2 r l)) (p1 (ix2 r l)))
            + ∑ l : Fin 1280, Jsd.fusedE (q2 (ix2 r l)) (p2 (ix2 r l)))
            + ∑ l : Fin 1280, Jsd.fusedE (q3 (ix2 r l)) (p3 (ix2 r l)))
            + ∑ l : Fin 1280, Jsd.fusedE (q4 (ix2 r l)) (p4 (ix2 r l))) := by
  rw [blockPay_eq, shapeCast_self]
  simp only [lane_apply]
  rfl

end Cert.KernelIdeal.KerValue

end
-- ==== Proof.KerPieces.lean ====
/-
  What one grid point leaves in the output's staging buffer, as a value.

  The body's last store covers the whole [256, 1] staging block, so what a point leaves is that store's payload: the
  stored-block term of the five pairs of column sub-slices of the two input blocks and of the block the body found in
  the output's buffer.  At a point with vocabulary-block coordinate zero the body first stores a zero column and finds
  that; at the other points it finds what the point before left.  Column sub-slice j of a [256, 6400] block holds
  lanes 1280·j … 1280·j + 1279: its entry (r, l) is the block's entry (r, 1280·j + l).
-/
import proofs.«101492_j29892972380471_2_alg».proof.Proof.Gen.KernelIdeal.Frame
import proofs.«101492_j29892972380471_2_alg».proof.Proof.KerPayload
import Idealize.ShloMosaic.Lib.Pipeline.Value
import Idealize.ShloMosaic.Lib.Tactic

set_option maxRecDepth 16384

noncomputable section

namespace Cert.KernelIdeal.KerValue

open Cert.KernelIdeal Cert.KernelIdeal.Gen Idealize.ShloMosaic Idealize.ShloMosaic.TcCoe Idealize.ShloMosaic.Tactic
  Idealize.ShloMosaic.ValueIdx Idealize.SL.Sem

variable {F : FTy → Type} [FloatOps F]

theorem hz : (![0, 0] : Fin 2 → Nat) = fun _ => 0 := funext fun a => by fin_cases a <;> rfl

/-- Column sub-slice j lies inside the block. -/
theorem sub_inb (j : Fin 5) : ∀ a, (![0, 1280 * j.val] : Fin 2 → Nat) a + S256x1280.size a ≤ S256x6400.size a := by
  intro a
  have := j.isLt
  match a with
  | ⟨0, _⟩ => show 0 + 256 ≤ 256; omega
  | ⟨1, _⟩ => show 1280 * j.val + 1280 ≤ 6400; omega

/-- Column sub-slice j (lanes 1280·j … 1280·j + 1279) of a [256, 6400] block. -/
def sub (x : Vec F S256x6400 .f32) (j : Fin 5) : Vec F S256x1280 .f32 :=
  View.ld x (Rect.unit (s := S256x6400) ![0, 1280 * j.val] S256x1280.size (sub_inb j))

/-- Lane l of sub-slice j is column 1280·j + l of the block. -/
def col (j : Fin 5) (l : Fin 1280) : Fin 6400 := ⟨1280 * j.val + l.val, by have := j.isLt; have := l.isLt; omega⟩

/-- Its entry (r, l) is the block's entry (r, 1280·j + l). -/
theorem sub_apply (x : Vec F S256x6400 .f32) (j : Fin 5) (r : Fin 256) (l : Fin 1280) :
    sub x j (ix2 r l) = x (ix2 r (col j l)) := by
  unfold sub
  show x _ = x _
  refine congrArg x (funext fun a => Fin.ext ?_)
  match a with
  | ⟨0, _⟩ => show 0 + 1 * r.val = r.val; omega
  | ⟨1, _⟩ => show 1280 * j.val + 1 * l.val = 1280 * j.val + l.val; omega

/-- The stored-block term over a point's two input blocks and a found block. -/
def pointPay (x0 x1 : Vec F S256x6400 .f32) (xo : Vec F S256x1 .f32) : FVec F S256x1 .f32 :=
  blockPay (sub x0 0) (sub x1 0) (sub x0 1) (sub x1 1) (sub x0 2) (sub x1 2) (sub x0 3) (sub x1 3) (sub x0 4) (sub x1 4) xo

/-- A POINT THAT ACCUMULATES (vocabulary-block coordinate not zero) leaves the stored-block term over what it found. -/
theorem out_B (c : Dev nD) (i : grid0.Coords) (a2 : Memref sig .tc .vmem S256x6400 .f32) (h2 : a2.IsWhole)
    (a3 : Memref sig .tc .vmem S256x6400 .f32) (h3 : a3.IsWhole) (a4 : Memref sig .tc .vmem S256x1 .f32) (h4 : a4.IsWhole)
    (hc : ¬cond0_0 i) (x0 x1 : Vec F S256x6400 .f32) (xo2 : Vec F S256x1 .f32) :
    out0_B_2 c i a2 h2 a3 h3 a4 h4 hc x0 x1 xo2 = pointPay x0 x1 xo2 := by
  unfold out0_B_2
  rw [View.read_writes_eq_canon _ _ _ (cover0_B_2 c i a2 h2 a3 h3 a4 h4 hc x0 x1 xo2)]
  unfold kernelRun0_B
  dsimp only
  sl_unfold_words
  rw [View.canon_unit_zero hz]
  simp only [View.readAt_eq_ld, h2.read_unread, h3.read_unread, h4.read_unread, View.ld_unit_zero (S := S256x1) hz]
  rfl

/-- A POINT THAT RESETS (vocabulary-block coordinate zero) leaves the stored-block term over the zero column it stored. -/
theorem out_A (c : Dev nD) (i : grid0.Coords) (a2 : Memref sig .tc .vmem S256x6400 .f32) (h2 : a2.IsWhole)
    (a3 : Memref sig .tc .vmem S256x6400 .f32) (h3 : a3.IsWhole) (a4 : Memref sig .tc .vmem S256x1 .f32) (h4 : a4.IsWhole)
    (hc : cond0_0 i) (x0 x1 : Vec F S256x6400 .f32) :
    out0_A_2 c i a2 h2 a3 h3 a4 h4 hc x0 x1 = pointPay x0 x1 (k0_pay2 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S256x1) hz, View.readCov_unit_zero (S := S256x1) _ hz]
  simp only [View.readAt_eq_ld, h2.read_unread, h3.read_unread]
  rfl

end Cert.KernelIdeal.KerValue

end
-- ==== Proof.LibSumRegroup.lean ====
/-
  Regrouping a finite sum in a commutative monoid: a sum over m·n consecutive positions as a double sum
  over the quotient and the remainder of the position by n, and a sum over a rank-1 index set as the sum
  over its one coordinate. Both hold in any additive commutative monoid — in particular on the extended
  reals, where no finiteness is needed to regroup a sum.
-/
import Idealize.ShloMosaic.PureOps.Ideal
import Idealize.ShloMosaic.Lib.ValueIdx

noncomputable section

open scoped BigOperators

namespace Cert.Lib.SumRegroup

open Idealize.ShloMosaic Idealize.ShloMosaic.ValueIdx

/-- A sum over m·n consecutive positions is the double sum over (c, d) of the position n·c + d. -/
theorem sum_fin_mul {M : Type*} [AddCommMonoid M] (m n N : ℕ) (hN : N = m * n) (f : Fin N → M) :
    ∑ k : Fin N, f k = ∑ c : Fin m, ∑ d : Fin n, f (Fin.cast hN.symm (finProdFinEquiv (c, d))) := by
  subst hN
  rw [← Equiv.sum_comp finProdFinEquiv f, Fintype.sum_prod_type]
  rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Lib.SumRegroup

end
-- ==== Proof.KerAccum.lean ====
/-
  The accumulation across the grid, in closed form.

  Grid point t = 5·i + k works on row block i (rows 256·i … 256·i + 255) and vocabulary block k (columns 6400·k …
  6400·k + 6399).  Write e(R, v) for the fused entry of row R, column v of the two argument arrays (zero off the
  arrays, so that sums over ranges of naturals make sense).  One point adds to row r of what it found the sum of
  e(256·i + r, v) over its 6400 columns (the five sub-slice sums regrouped: a sum over 5·1280 consecutive positions);
  a point with k = 0 found a zero column.  By induction on the point, after point t row r of the output's staging
  block holds the sum of e(256·i + r, v) over the first 6400·(k + 1) columns.
-/
import proofs.«101492_j29892972380471_2_alg».proof.Proof.KerPieces
import proofs.«101492_j29892972380471_2_alg».proof.Proof.LibSumRegroup

set_option maxRecDepth 16384

noncomputable section

open scoped BigOperators

namespace Cert.KernelIdeal.KerValue

open Cert.KernelIdeal Cert.KernelIdeal.Gen Idealize.ShloMosaic Idealize.ShloMosaic.TcCoe Idealize.ShloMosaic.ValueIdx
  Idealize.SL.Sem

/-! ## One point's contribution -/

/-- A sum over the 6400 columns of a block is the sum over the five sub-slices of the sums over their 1280 lanes. -/
theorem sum_cols {M : Type*} [AddCommMonoid M] (f : Fin 6400 → M) :
    ∑ v : Fin 6400, f v = ∑ j : Fin 5, ∑ l : Fin 1280, f (col j l) := by
  rw [Cert.Lib.SumRegroup.sum_fin_mul 5 1280 6400 rfl f]
  refine Finset.sum_congr rfl fun j _ => Finset.sum_congr rfl fun l _ => congrArg f (Fin.ext ?_)
  show (finProdFinEquiv (j, l)).val = 1280 * j.val + l.val
  rw [finProdFinEquiv_apply_val]
  exact Nat.add_comm _ _

/-- Row r of what a point stores: the found entry plus the sum of the fused entries over the block's 6400 columns. -/
theorem pointPay_apply (x0 x1 : Vec Ideal S256x6400 .f32) (xo : Vec Ideal S256x1 .f32) (r : Fin 256) (u : Fin 1) :
    pointPay x0 x1 xo (ix2 r u) = xo (ix2 r u) + ∑ v : Fin 6400, Jsd.fusedE (x0 (ix2 r v)) (x1 (ix2 r v)) := by
  unfold pointPay
  rw [blockPay_apply]
  simp only [sub_apply]
  rw [sum_cols (fun v => Jsd.fusedE (x0 (ix2 r v)) (x1 (ix2 r v))), Fin.sum_univ_five, Ideal.ofBits_zero_f32, zero_add]

/-! ## The entries of the argument arrays, and a row's partial sums -/

/-- The fused entry of row R, column v of the two arrays; zero off the arrays. -/
def ent (Q P : S4096x32000.Idx → EReal) (R v : ℕ) : EReal :=
  if h : R < 4096 ∧ v < 32000 then
    Jsd.fusedE (Q (ix2 (⟨R, h.1⟩ : Fin 4096) (⟨v, h.2⟩ : Fin 32000))) (P (ix2 (⟨R, h.1⟩ : Fin 4096) (⟨v, h.2⟩ : Fin 32000)))
  else 0

/-- Row R's first n entries, summed. -/
def rowPart (Q P : S4096x32000.Idx → EReal) (R n : ℕ) : EReal := ∑ v ∈ Finset.range n, ent Q P R v

variable (m : (ℓ : Loc nD τ sig) → Buf (Elt Ideal) ℓ)

/-- The printed index maps, decided over the grid: at point t both input windows are at block (t / 5, t % 5), the
    output window at block (t / 5, 0). -/
theorem idx_facts : ∀ t : Fin cfg0.N, win0_0.index t (0 : Fin 2) = t.val / 5 ∧ win0_0.index t (1 : Fin 2) = t.val % 5
    ∧ win0_1.index t (0 : Fin 2) = t.val / 5 ∧ win0_1.index t (1 : Fin 2) = t.val % 5
    ∧ win0_2.index t (0 : Fin 2) = t.val / 5 ∧ win0_2.index t (1 : Fin 2) = 0 :=
  (by decide +kernel : ∀ t : Fin grid0.N, _)

theorem N80 : cfg0.N = 80 := N_0

/-- Entry (r, v) of the first input block at point t is entry (256·(t/5) + r, 6400·(t%5) + v) of the first array, -/
theorem iblk0_apply (c : Dev nD) (t : Fin cfg0.N) (r : Fin 256) (v : Fin 6400)
    (hR : 256 * (t.val / 5) + r.val < 4096) (hv : 6400 * (t.val % 5) + v.val < 32000) :
    (iblk m c 0 t : Vec Ideal S256x6400 .f32) (ix2 r v)
      = V m c main_arg0 (ix2 (⟨256 * (t.val / 5) + r.val, hR⟩ : Fin 4096) (⟨6400 * (t.val % 5) + v.val, hv⟩ : Fin 32000)) := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 256 + 1 * r.val = 256 * (t.val / 5) + r.val; rw [e0]; omega
  | ⟨1, _⟩ => show win0_0.index t (1 : Fin 2) * 6400 + 1 * v.val = 6400 * (t.val % 5) + v.val; rw [e1]; omega

/-- and the same of the second input block and the second array. -/
theorem iblk1_apply (c : Dev nD) (t : Fin cfg0.N) (r : Fin 256) (v : Fin 6400)
    (hR : 256 * (t.val / 5) + r.val < 4096) (hv : 6400 * (t.val % 5) + v.val < 32000) :
    (iblk m c 1 t : Vec Ideal S256x6400 .f32) (ix2 r v)
      = V m c main_arg1 (ix2 (⟨256 * (t.val / 5) + r.val, hR⟩ : Fin 4096) (⟨6400 * (t.val % 5) + v.val, hv⟩ : Fin 32000)) := by
  obtain ⟨-, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 256 + 1 * r.val = 256 * (t.val / 5) + r.val; rw [e0]; omega
  | ⟨1, _⟩ => show win0_1.index t (1 : Fin 2) * 6400 + 1 * v.val = 6400 * (t.val % 5) + v.val; rw [e1]; omega

/-- Point t's contribution to row r: the entries of row 256·(t/5) + r over the 6400 columns from 6400·(t%5). -/
theorem blockSum_eq (c : Dev nD) (t : Fin cfg0.N) (r : Fin 256) :
    ∑ v : Fin 6400, Jsd.fusedE ((iblk m c 0 t : Vec Ideal S256x6400 .f32) (ix2 r v)) ((iblk m c 1 t : Vec Ideal S256x6400 .f32) (ix2 r v))
      = ∑ v ∈ Finset.range 6400, ent (V m c main_arg0) (V m c main_arg1) (256 * (t.val / 5) + r.val) (6400 * (t.val % 5) + v) := by
  have hN : t.val < 80 := lt_of_lt_of_eq t.isLt (N80)
  have hr := r.isLt
  rw [← Fin.sum_univ_eq_sum_range (fun v => ent (V m c main_arg0) (V m c main_arg1) (256 * (t.val / 5) + r.val) (6400 * (t.val % 5) + v)) 6400]
  refine Finset.sum_congr rfl fun v _ => ?_
  have hv := v.isLt
  have hR : 256 * (t.val / 5) + r.val < 4096 := by omega
  have hV : 6400 * (t.val % 5) + v.val < 32000 := by omega
  rw [iblk0_apply m c t r v hR hV, iblk1_apply m c t r v hR hV]
  unfold ent
  rw [dif_pos ⟨hR, hV⟩]

/-! ## The induction over the grid points -/

/-- A point that resets leaves, in row r, the first 6400 entries of its row summed. -/
theorem outsAt_reset (c : Dev nD) (t : Fin cfg0.N) (h0 : t.val % 5 = 0) (r : Fin 256) (u : Fin 1) :
    (outsAt0 m c t.val t.isLt : Vec Ideal S256x1 .f32) (ix2 r u)
      = rowPart (V m c main_arg0) (V m c main_arg1) (256 * (t.val / 5) + r.val) 6400 := by
  rw [outsAt0_A m c t h0, out_A, pointPay_apply, blockSum_eq m c t r, h0]
  show Ideal.ofBits .f32 0x00000000#32 + _ = _
  rw [Ideal.ofBits_zero_f32, zero_add]
  unfold rowPart
  refine Finset.sum_congr rfl fun v _ => ?_
  rw [Nat.mul_zero, Nat.zero_add]

/-- A point that accumulates adds its contribution to what the point before left. -/
theorem outsAt_acc (c : Dev nD) (t : Fin cfg0.N) (h0 : ¬t.val % 5 = 0) (r : Fin 256) (u : Fin 1) :
    (outsAt0 m c t.val t.isLt : Vec Ideal S256x1 .f32) (ix2 r u)
      = (outsAt0 m c (t.val - 1) (Nat.lt_of_le_of_lt (Nat.sub_le _ _) t.isLt) : Vec Ideal S256x1 .f32) (ix2 r u)
        + ∑ v ∈ Finset.range 6400, ent (V m c main_arg0) (V m c main_arg1) (256 * (t.val / 5) + r.val) (6400 * (t.val % 5) + v) := by
  rw [outsAt0_B m c t h0, out_B, pointPay_apply, blockSum_eq m c t r]

/-- THE RUNNING SUM. After point n, row r of the output's staging block holds the sum of the entries of row
    256·(n/5) + r over its first 6400·(n%5 + 1) columns. -/
theorem outsAt_eq (c : Dev nD) : ∀ (n : ℕ) (hn : n < cfg0.N) (r : Fin 256) (u : Fin 1),
    (outsAt0 m c n hn : Vec Ideal S256x1 .f32) (ix2 r u)
      = rowPart (V m c main_arg0) (V m c main_arg1) (256 * (n / 5) + r.val) (6400 * (n % 5 + 1)) := by
  intro n
  induction n with
  | zero =>
    intro hn r u
    exact outsAt_reset m c ⟨0, hn⟩ rfl r u
  | succ n ih =>
    intro hn r u
    by_cases h0 : (n + 1) % 5 = 0
    · have e := outsAt_reset m c ⟨n + 1, hn⟩ h0 r u
      rw [h0]
      exact e
    · have e := outsAt_acc m c ⟨n + 1, hn⟩ h0 r u
      have ih' := ih (Nat.lt_of_succ_lt hn) r u
      have hd : (n + 1) / 5 = n / 5 := by omega
      have hm : (n + 1) % 5 = n % 5 + 1 := by omega
      refine e.trans ?_
      show (outsAt0 m c n _ : Vec Ideal S256x1 .f32) (ix2 r u) + _ = _
      rw [ih']
      show rowPart _ _ (256 * (n / 5) + r.val) (6400 * (n % 5 + 1))
          + ∑ v ∈ Finset.range 6400, ent _ _ (256 * ((n + 1) / 5) + r.val) (6400 * ((n + 1) % 5) + v) = _
      rw [hd, hm]
      unfold rowPart
      rw [show 6400 * (n % 5 + 1 + 1) = 6400 * (n % 5 + 1) + 6400 from by ring, Finset.sum_range_add]

/-- A row's full partial sum is the sum of its 32000 fused entries. -/
theorem rowPart_full (Q P : S4096x32000.Idx → EReal) (R : Fin 4096) :
    rowPart Q P R.val 32000 = ∑ k : Fin 32000, Jsd.fusedE (Q (ix2 R k)) (P (ix2 R k)) := by
  unfold rowPart
  rw [← Fin.sum_univ_eq_sum_range (fun v => ent Q P R.val v) 32000]
  refine Finset.sum_congr rfl fun k _ => ?_
  unfold ent
  rw [dif_pos ⟨R.isLt, k.isLt⟩]

-- What follows uses a row's partial sums through two facts only: the running sum after a grid point, and that the
-- partial sum over all 32000 columns is the row's total.
attribute [irreducible] rowPart

end Cert.KernelIdeal.KerValue

end
-- ==== Proof.KerArray.lean ====
/-
  From the staging block to the result array.

  The output window's block index is the row-block coordinate alone, so its staging buffer is written back once per
  row block, after the last vocabulary block (points 5·i + 4).  By the running sum, what is written back then is, in
  row r, the sum of all 32000 entries of row 256·i + r: block i of the [4096, 1] column whose row R is the total of
  row R.  The sixteen written blocks tile the array (row R is in the block written at point 5·(R / 256) + 4), so after
  the run the array is that column.
-/
import proofs.«101492_j29892972380471_2_alg».proof.Proof.KerAccum
import Idealize.ShloMosaic.Lib.Pipeline.Value

set_option maxRecDepth 16384

noncomputable section

open scoped BigOperators

namespace Cert.KernelIdeal.KerValue

open Cert.KernelIdeal Cert.KernelIdeal.Gen Idealize.ShloMosaic Idealize.ShloMosaic.TcCoe Idealize.ShloMosaic.ValueIdx
  Idealize.SL.Sem
open Idealize.ShloMosaic.Pipeline (Dat)

variable (m : (ℓ : Loc nD τ sig) → Buf (Elt Ideal) ℓ)

/-- The [4096, 1] column of row totals: row R holds the sum of all 32000 entries of row R. -/
def totals (Q P : S4096x32000.Idx → EReal) : S4096x1.Idx → EReal := fun i => rowPart Q P (i 0).val 32000

/-- Row R of the column of row totals, written out. -/
theorem totals_apply (Q P : S4096x32000.Idx → EReal) (R : Fin 4096) (u : Fin 1) :
    totals Q P (ix2 R u) = rowPart Q P R.val 32000 := rfl

/-- WHAT A WRITE-BACK WRITES is its block of the column of row totals. -/
theorem flushed_eq (c : Dev nD) (t : Fin cfg0.N) (hf : (cfg0.win 2).flush t = true) :
    (dats m 0 c).flushed 2 t = ((cfg0.win 2).blk t).view.read (Elt Ideal) (totals (V m c main_arg0) (V m c main_arg1)) := by
  have h4 : t.val % 5 = 4 := (flush0_2 t).mp hf
  obtain ⟨-, -, -, -, e0, -⟩ := idx_facts t
  show (cfg0.win 2).cut (grid0.coords t) ((dats m 0 c).after 2 t) = _
  rw [after0_2]
  funext j
  obtain ⟨r, u, rfl⟩ : ∃ (r : Fin 256) (u : Fin 1), j = (ix2 r u : S256x1.Idx) := ⟨j 0, j 1, eq_ix2 (n0 := 256) (n1 := 1) j⟩
  rw [View.read_apply]
  refine (outsAt_eq m c t.val t.isLt r u).trans ?_
  unfold totals
  refine congrArg₂ (rowPart (V m c main_arg0) (V m c main_arg1)) ?_ (by rw [h4])
  show 256 * (t.val / 5) + r.val = win0_2.index t (0 : Fin 2) * 256 + 1 * r.val
  rw [e0]; omega

/-- An index of the array is in point t's block iff each coordinate is in the block's range on its axis. -/
theorem mem_blk (t : Fin cfg0.N) (i : S4096x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v0).slice (win0_2.rect t)).set ↔ _
  rw [View.set_slice_whole, Rect.mem_set_unit]
  exact Iff.rfl

/-- THE COVER: row R is in the block written back at point 5·(R / 256) + 4. -/
theorem cover (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  obtain ⟨t, ht⟩ : ∃ t : Fin cfg0.N, t.val = 5 * ((i 0).val / 256) + 4 := ⟨⟨5 * ((i 0).val / 256) + 4, by rw [N80]; omega⟩, rfl⟩
  obtain ⟨-, -, -, -, e0, e1⟩ := idx_facts t
  refine ⟨t, (flush0_2 t).mpr (by omega), ?_⟩
  rw [mem_blk]
  intro a
  match a with
  | ⟨0, _⟩ =>
    show win0_2.index t (0 : Fin 2) * 256 ≤ (i 0).val ∧ (i 0).val < win0_2.index t (0 : Fin 2) * 256 + 256
    rw [e0]; omega
  | ⟨1, _⟩ =>
    show win0_2.index t (1 : Fin 2) * 1 ≤ (i 1).val ∧ (i 1).val < win0_2.index t (1 : Fin 2) * 1 + 1
    rw [e1]; omega

/-- THE ARRAY after the run is the column of row totals. -/
theorem final_out (c : Dev nD) : (dats m 0 c).arrAt 2 cfg0.N = totals (V m c main_arg0) (V m c main_arg1) :=
  (dats m 0 c).arrAt_eq_of_cover 2 (totals (V m c main_arg0) (V m c main_arg1)) (flushed_eq m c) cover

end Cert.KernelIdeal.KerValue

end
-- ==== Proof.JsdSpec.lean ====
/-
  The specification: what both programs compute, as functions of the argument arrays, at the exact instance.

  `rowLoss Q P` is, per row, the sum over the vocabulary of the fused Jensen–Shannon entry of the row's log-probabilities
  (Q the log-probabilities of q, P those of p).  `maskedMean loss label` is the mean of the per-row losses over the rows
  whose label is not the ignore value −100: rows with the ignore label contribute zero, the count n of kept rows is a
  32-bit integer sum read as a float, the result is (Σ kept losses) / max(n, 1) when n > 0 and zero otherwise.
  The whole result of either program is `maskedMean (rowLoss Q P) label`.  The masked mean is written once, over the
  literal shapes and with the shape facts it needs as arguments, so that the two programs' last stretches are the same
  term whatever names each program gives those facts.
-/
import proofs.«101492_j29892972380471_2_alg».proof.Proof.JsdReal
import Idealize.ShloMosaic.PureOps.Ideal
import Idealize.ShloMosaic.Lib.ValueIdx

noncomputable section

open scoped BigOperators

namespace Jsd

open Idealize.ShloMosaic Idealize.ShloMosaic.ValueIdx

/-- The shapes: [4096, 32000] log-probabilities, [4096] rows, a scalar. -/
abbrev SNV : Shape := ⟨2, ![4096, 32000]⟩
abbrev SN : Shape := ⟨1, ![4096]⟩
abbrev S0 : Shape := ⟨0, ![]⟩

/-- Entry (R, v) of a [4096, 32000] array, the row taken from a [4096] index. -/
abbrev at2 (i : SN.Idx) (k : Fin 32000) : SNV.Idx := ix2 (⟨(i 0).val, (i 0).isLt⟩ : Fin 4096) k

/-- The per-row loss: the fused entries summed along the row. -/
def rowLoss (Q P : SNV.Idx → EReal) : SN.Idx → EReal :=
  fun i => ∑ k : Fin 32000, fusedE (Q (at2 i k)) (P (at2 i k))

/-- Row i of the row loss, written out. -/
theorem rowLoss_apply (Q P : SNV.Idx → EReal) (i : SN.Idx) :
    rowLoss Q P i = ∑ k : Fin 32000, fusedE (Q (at2 i k)) (P (at2 i k)) := rfl

/-- The mean of the kept rows' losses (those whose label is not −100), zero when no row is kept. -/
def maskedMean (hb : S0.BroadcastsInDim SN (![] : Fin 0 → Fin SN.rank)) (hlt : 1 < 32) (hr : SN.ReducesTo [0] S0) (h0 : 0 < S0.numel)
    (loss : FVec Ideal SN .f32) (label : IVec SN 32) : FVec Ideal S0 .f32 :=
  select (cmpf .ogt (sitofp .f32 (Host.reduce IntOp.addi (extui 32 (cmpi .ne label (broadcastInDim SN ![] hb (constantI S0 32 4294967196#32))) hlt) (constantI S0 32 0#32) hr h0)) (constant (F := Ideal) S0 .f32 0x00000000#32))
    (Host.divf (Host.reduceAdd (select (cmpi .ne label (broadcastInDim SN ![] hb (constantI S0 32 4294967196#32))) loss (broadcastInDim SN ![] hb (id (constant (F := Ideal) S0 .f32 0x00000000#32)))) (constant (F := Ideal) S0 .f32 0x00000000#32) hr h0)
      (maximumf (sitofp .f32 (Host.reduce IntOp.addi (extui 32 (cmpi .ne label (broadcastInDim SN ![] hb (constantI S0 32 4294967196#32))) hlt) (constantI S0 32 0#32) hr h0)) (constant (F := Ideal) S0 .f32 0x3F800000#32)))
    (id (constant (F := Ideal) S0 .f32 0x00000000#32))

end Jsd

end
-- ==== Proof.KerRun.lean ====
/-
  The kernel's program, read: its result is the masked mean of the row losses.

  After the region the [4096, 1] result array holds the column of row totals; the program reshapes it to [4096] —
  row R of which is the sum of the 32000 fused entries of row R, the row loss — and applies the masked mean with the
  label array.  The two float arrays and the label array end as they were.
-/
import proofs.«101492_j29892972380471_2_alg».proof.Proof.KerArray
import proofs.«101492_j29892972380471_2_alg».proof.Proof.JsdSpec
import Idealize.ShloMosaic.Lib.StableHlo.Run
import Idealize.ShloMosaic.Lib.Pipeline.Value

set_option maxRecDepth 16384

noncomputable section

open scoped BigOperators

namespace Cert.KernelIdeal.KerValue

open Cert.KernelIdeal Cert.KernelIdeal.Gen Idealize.ShloMosaic Idealize.ShloMosaic.TcCoe Idealize.ShloMosaic.ValueIdx
  Idealize.SL.Sem Idealize.ShloMosaic.StableHlo
open Idealize.ShloMosaic.Pipeline (Dat)

variable (m : (ℓ : Loc nD τ sig) → Buf (Elt Ideal) ℓ) (ρ : Dev nD → PrngReg)

/-- The column of row totals, reshaped to a vector, is the row loss. -/
theorem reshape_totals (Q P : S4096x32000.Idx → EReal) :
    shapeCast S4096 (totals Q P) shapeCasts_S4096x1_S4096 = Jsd.rowLoss Q P := by
  funext i
  obtain ⟨R, rfl⟩ : ∃ R : Fin 4096, i = (ix1 R : S4096.Idx) := ⟨i 0, eq_ix1 (n := 4096) i⟩
  refine (shapeCast_apply (totals Q P) shapeCasts_S4096x1_S4096 (ix1 R) (ix2 R (0 : Fin 1)) ?_).trans ?_
  · rw [Shape.rowMajor_val_two, Shape.rowMajor_val_one]
    show R.val * 1 + 0 = R.val
    omega
  · rw [totals_apply, rowPart_full, Jsd.rowLoss_apply]

set_option maxHeartbeats 1000000 in
/-- The operations after the region, applied to what the region leaves, are the masked mean of the reshaped result
    array with the label array. -/
theorem tail_raw (c : Dev nD) :
    Pipeline.afterTail₀ cfgs (dats m) 0 (V0 m) [hostOps1, hostOps1_1, hostOps1_2, hostOps1_3] c main_v12
      = Jsd.maskedMean bcast_S_S4096 natLt_1_32 reducesTo_S4096_S_d0 h_S_
          (shapeCast S4096 (Pipeline.withArrays (cfgs 0).spec c (V0 m c) (fun w => (dats m 0 c).arrAt w (cfgs 0).N) (Proc.devRef .tc main_v0)) shapeCasts_S4096x1_S4096)
          (Pipeline.withArrays (cfgs 0).spec c (V0 m c) (fun w => (dats m 0 c).arrAt w (cfgs 0).N) (Proc.devRef .tc main_arg2)) := by
  generalize hX : Jsd.maskedMean bcast_S_S4096 natLt_1_32 reducesTo_S4096_S_d0 h_S_
      (shapeCast S4096 (Pipeline.withArrays (cfgs 0).spec c (V0 m c) (fun w => (dats m 0 c).arrAt w (cfgs 0).N) (Proc.devRef .tc main_v0)) shapeCasts_S4096x1_S4096)
      (Pipeline.withArrays (cfgs 0).spec c (V0 m c) (fun w => (dats m 0 c).arrAt w (cfgs 0).N) (Proc.devRef .tc main_arg2)) = X
  unfold Pipeline.afterTail₀
  simp only [hostOps1, hostOps1_1, hostOps1_2, hostOps1_3, List.flatten_cons, List.flatten_nil, List.append_nil, List.cons_append, List.nil_append]
  after_results
  rw [← hX]
  rfl

/-- What the region leaves in the result array is the column of row totals, -/
theorem left_out (c : Dev nD) :
    Pipeline.withArrays (cfgs 0).spec c (V0 m c) (fun w => (dats m 0 c).arrAt w (cfgs 0).N) (Proc.devRef .tc main_v0)
      = totals (m ((c.tc : Thread nD τ).loc main_arg0)) (m ((c.tc : Thread nD τ).loc main_arg1)) :=
  (Pipeline.withArrays_arr spec0 launch0.win.arr_inj c _ _ 2).trans (final_out m c)

/-- and the label array is as launched. -/
theorem left_label (c : Dev nD) :
    Pipeline.withArrays (cfgs 0).spec c (V0 m c) (fun w => (dats m 0 c).arrAt w (cfgs 0).N) (Proc.devRef .tc main_arg2)
      = m ((c.tc : Thread nD τ).loc main_arg2) :=
  (Pipeline.withArrays_of_ne _ c (V0 m c) _ main_arg2 (by exact (by decide : ∀ w, Pipeline.arrRef spec0 w ≠ main_arg2))).trans (V_main_arg2 m c)

/-- THE KERNEL'S RUN, READ: every weakly fair execution terminates with the result at the masked mean of the row losses
    of the arguments, and the arguments unchanged. -/
theorem run : θ_run defs (onTc (τ := τ) (main (F := Ideal))) ⟨m, fun _ => 0, ρ⟩ fun r => ∀ c : Dev nD,
      r.2.mem ((c.tc : Thread nD τ).loc main_v12)
        = Jsd.maskedMean bcast_S_S4096 natLt_1_32 reducesTo_S4096_S_d0 h_S_
            (Jsd.rowLoss (m ((c.tc : Thread nD τ).loc main_arg0)) (m ((c.tc : Thread nD τ).loc main_arg1)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨by
      rw [(h c).2 main_v12 (Pipeline.mem_restRefs_of main_v12 (by decide) (by decide)), tail_raw, left_out, left_label,
        reshape_totals],
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KerValue

end
-- ==== Proof.RefRow.lean ====
/-
  The reference, read: its result is the masked mean of the row losses.

  The reference forms, per row, one half of (zero plus the sum of p's divergence terms from the midpoint) plus one half
  of (zero plus the sum of q's), with the midpoint spelt q + (p − q)/2.  For real log-probabilities that is the sum of
  the fused entries along the row (the row law), so the reference's per-row vector is `rowLoss`; the operations after it
  are the masked mean, and the run ends with the result buffer at the masked mean of the row losses of the arguments.
-/
import proofs.«101492_j29892972380471_2_alg».proof.Proof.RefReadP
import proofs.«101492_j29892972380471_2_alg».proof.Proof.JsdSpec

noncomputable section

open scoped BigOperators

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo

/-- The entry the two row sums read at (row i, column k) is entry (i, k). -/
theorem idx9_eq (i : S4096.Idx) (k : Fin 32000) : idx_main_v9 i k = Jsd.at2 i k :=
  funext fun a => by match a with | ⟨0, _⟩ => rfl | ⟨1, _⟩ => rfl
theorem idx12_eq (i : S4096.Idx) (k : Fin 32000) : idx_main_v12 i k = Jsd.at2 i k :=
  funext fun a => by match a with | ⟨0, _⟩ => rfl | ⟨1, _⟩ => rfl

/-- p's term at an entry: exp b · (b − log (exp a + half · (exp b − exp a))), a the entry of the first array (log q),
    b of the second (log p). -/
theorem v8_eq (x0 x1 : (⟨S4096x32000, .f32⟩ : BufTy).Contents (Elt Ideal)) (j : S4096x32000.Idx) :
    val_main_v8 (F := Ideal) x0 x1 j = Jsd.termPE (x0 j) (x1 j) := by
  rw [val_main_v8_apply, val_main_v0_apply, val_main_v7_apply, val_main_v6_apply, val_main_v5_apply, val_main_v1_apply,
    val_main_v4_apply, val_main_v3_apply, val_main_cst_apply, val_main_v2_apply, val_main_v0_apply, val_main_v1_apply]
  rfl

/-- q's term at an entry. -/
theorem v11_eq (x0 x1 : (⟨S4096x32000, .f32⟩ : BufTy).Contents (Elt Ideal)) (j : S4096x32000.Idx) :
    val_main_v11 (F := Ideal) x0 x1 j = Jsd.termQE (x0 j) (x1 j) := by
  rw [val_main_v11_apply, val_main_v1_apply, val_main_v10_apply, val_main_v6_apply, val_main_v5_apply, val_main_v1_apply,
    val_main_v4_apply, val_main_v3_apply, val_main_cst_apply, val_main_v2_apply, val_main_v0_apply, val_main_v1_apply]
  rfl

/-- The reference's per-row vector, for arrays of reals, is the row loss. -/
theorem v17_eq (x0 x1 : (⟨S4096x32000, .f32⟩ : BufTy).Contents (Elt Ideal))
    (h0 : ∀ j, ∃ r : ℝ, x0 j = (r : EReal)) (h1 : ∀ j, ∃ r : ℝ, x1 j = (r : EReal)) :
    val_main_v17 (F := Ideal) x0 x1 = Jsd.rowLoss x0 x1 := by
  choose a ha using h0
  choose b hb using h1
  funext i
  rw [val_main_v17_apply, val_main_v14_apply, val_main_v16_apply, val_main_v13_apply, val_main_v15_apply,
    val_main_cst_2_apply, val_main_cst_3_apply, val_main_v9_apply, val_main_v12_apply, val_main_cst_0_apply,
    val_main_cst_1_apply]
  simp only [v8_eq, v11_eq, idx9_eq, idx12_eq, ha, hb]
  rw [Jsd.rowLoss_apply]
  simp only [ha, hb]
  exact (Jsd.row_law Finset.univ (fun k => a (Jsd.at2 i k)) (fun k => b (Jsd.at2 i k))).symm

/-- The reference's result is the masked mean of its per-row vector. -/
theorem v28_eq (x0 x1 : (⟨S4096x32000, .f32⟩ : BufTy).Contents (Elt Ideal)) (x2 : (⟨S4096, .i32⟩ : BufTy).Contents (Elt Ideal)) :
    val_main_v28 (F := Ideal) x0 x1 x2
      = Jsd.maskedMean bcast_S_S4096 natLt_1_32 reducesTo_S4096_S_d0 h_S_ (val_main_v17 (F := Ideal) x0 x1) x2 := rfl

/-- THE REFERENCE'S RUN, READ: from a memory whose two float arrays hold reals, every weakly fair execution terminates
    with the result at the masked mean of the row losses, and the arguments unchanged. -/
theorem run (m : (ℓ : Loc nD τ sig) → Buf (Elt Ideal) ℓ) (ρ : Dev nD → PrngReg)
    (h0 : ∀ (c : Dev nD) j, ∃ r : ℝ, m ((c.tc : Thread nD τ).loc main_arg0) j = (r : EReal))
    (h1 : ∀ (c : Dev nD) j, ∃ r : ℝ, m ((c.tc : Thread nD τ).loc main_arg1) j = (r : EReal)) :
    θ_run defs (onTc (τ := τ) (main (F := Ideal))) ⟨m, fun _ => 0, ρ⟩ fun r => ∀ c : Dev nD,
      r.2.mem ((c.tc : Thread nD τ).loc main_v28)
        = Jsd.maskedMean bcast_S_S4096 natLt_1_32 reducesTo_S4096_S_d0 h_S_
            (Jsd.rowLoss (m ((c.tc : Thread nD τ).loc main_arg0)) (m ((c.tc : Thread nD τ).loc main_arg1)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨by
      rw [(h c).1, val_main_v28_eq, v28_eq, v17_eq _ _ (h0 c) (h1 c)], (h c).2⟩)
    (Cert.ReferenceIdeal.ValueP.run (F := Ideal) m ρ)

end Cert.ReferenceIdeal.RefValue

end
-- ==== Proof.JsdFinite.lean ====
/-
  From the precondition to real entries.

  The precondition says, of each of the two float arrays, that every entry's absolute value is below +infinity
  (a conjunction of two "all" reductions of one-bit comparisons).  An extended real whose absolute value is below
  +infinity is neither infinity, so it is a real number: every entry of both arrays is the inclusion of a real.
-/
import proofs.«101492_j29892972380471_2_alg».proof.Pre_finite_inputs
import proofs.«101492_j29892972380471_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Jsd.Finite

open Idealize.ShloMosaic Cert.Pre_finite_inputs Cert.Pre_finite_inputs.Gen

instance : Subsingleton S_.Idx := ⟨fun a b => funext fun d => d.elim0⟩

/-- The float word 0x7F800000 is +infinity. -/
theorem inf_eq : Ideal.ofBits .f32 0x7F800000#32 = ⊤ := by
  simp [Ideal.ofBits, Ideal.ieee]

/-- An extended real whose absolute value compares below +infinity is a real. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [inf_eq] at h
  induction x using EReal.rec with
  | bot => exact absurd h (by simp [Ideal.cmpf_def, Ideal.cmp, Ideal.absf_def])
  | coe r => exact ⟨r, rfl⟩
  | top => exact absurd h (by simp [Ideal.cmpf_def, Ideal.cmp, Ideal.absf_def])

/-- Under the precondition every entry of both float arrays is a real. -/
theorem reals_of_pre (Q P : FVec Ideal S4096x32000 .f32) (L : IVec S4096 32)
    (h : Cert.Pre_finite_inputs.fn (F := Ideal) Q P L = fun _ => 1#1) :
    (∀ j, ∃ r : ℝ, Q j = (r : EReal)) ∧ (∀ j, ∃ r : ℝ, P j = (r : EReal)) := by
  have h0 := congrFun h ValueIdx.ix0
  dsimp only [Cert.Pre_finite_inputs.fn] at h0
  obtain ⟨hQ, hP⟩ := IntOp.andi_eq_one.1 h0
  refine ⟨fun j => real_of_abs_lt (Q j) ?_, fun j => real_of_abs_lt (P j) ?_⟩
  · exact Host.reduce_andi_all _ _ _ _ _ hQ j
  · exact Host.reduce_andi_all _ _ _ _ _ hP j

end Jsd.Finite

end
-- ==== Proof.lean ====
/-
  A fused Jensen–Shannon divergence loss against its two-term reference, over the extended reals.

  Inputs: log q and log p, both f32[4096, 32000], and an int32 label per row.  With q = exp(log q), p = exp(log p) and
  the midpoint m = (p + q)/2, the kernel computes per entry  (p·log p + q·log q)/2 − m·log m,  sums it along each row
  — five column blocks of 6400 per row block of 256 rows, each block in five sub-slices of 1280 lanes, accumulated in
  the output block across the column blocks — and the program then averages the row sums over the rows whose label is
  not −100.  The reference computes per row  (1/2)·Σ p·(log p − log m') + (1/2)·Σ q·(log q − log m')  with
  m' = q + (p − q)/2, and the same average.

  Both are  maskedMean (rowLoss (log q) (log p)) label  (Proof/JsdSpec.lean):
    · the kernel's side regroups a row's sum (a commutative monoid's sums regroup freely, infinities or not):
      Proof/KerPayload.lean (the stored block at an entry), Proof/KerPieces.lean (what a grid point leaves),
      Proof/KerAccum.lean (the running sum across the grid, by induction on the point), Proof/KerArray.lean (the
      write-backs tile the result array), Proof/KerRun.lean (the reshape and the masked mean after the region);
    · the reference's side uses the entry law  fused = (1/2)·termP + (1/2)·termQ  and pulls 1/2 out of the sums.  That
      is distributivity, which fails at the infinities: it is proved over the reals (Proof/JsdReal.lean) and applies
      because the precondition makes every entry of log q and log p a real (Proof/JsdFinite.lean), whence q, p and m
      are positive reals and log m is a real; Proof/RefRow.lean reads the reference's run.
  The idealization rewrote nothing, so `preserves` is trivial; the two kernels' frames are the generated ones and the
  reference's frame is its run with the result dropped.
-/
import proofs.«101492_j29892972380471_2_alg».proof.Defs
import proofs.«101492_j29892972380471_2_alg».proof.Proof.Gen.Kernel
import proofs.«101492_j29892972380471_2_alg».proof.Proof.Gen.Kernel.Skeleton
import proofs.«101492_j29892972380471_2_alg».proof.Proof.Gen.Kernel.Launch
import proofs.«101492_j29892972380471_2_alg».proof.Proof.Gen.Kernel.Points
import proofs.«101492_j29892972380471_2_alg».proof.Proof.Gen.Kernel.Frame
import proofs.«101492_j29892972380471_2_alg».proof.Proof.Gen.KernelIdeal
import proofs.«101492_j29892972380471_2_alg».proof.Proof.Gen.KernelIdeal.Skeleton
import proofs.«101492_j29892972380471_2_alg».proof.Proof.Gen.KernelIdeal.Launch
import proofs.«101492_j29892972380471_2_alg».proof.Proof.Gen.KernelIdeal.Points
import proofs.«101492_j29892972380471_2_alg».proof.Proof.Gen.KernelIdeal.Frame
import proofs.«101492_j29892972380471_2_alg».proof.Proof.Gen.ReferenceIdeal
import proofs.«101492_j29892972380471_2_alg».proof.Proof.Gen.Pre_finite_inputs
import proofs.«101492_j29892972380471_2_alg».proof.Proof.KerRun
import proofs.«101492_j29892972380471_2_alg».proof.Proof.RefRow
import proofs.«101492_j29892972380471_2_alg».proof.Proof.JsdFinite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- At the exact instance, from memories agreeing on the arguments and with real log-probabilities, both programs end
    with the masked mean of the row losses of those arguments. -/
theorem algebraic : Cert.algebraic_KernelIdeal_ReferenceIdeal := by
  intro m ρ m' ρ' hpre hagree
  have hfin := fun c : Dev Cert.KernelIdeal.nD => Jsd.Finite.reals_of_pre _ _ _ (hpre c)
  refine ⟨_, Cert.KernelIdeal.KerValue.run m ρ, ?_⟩
  refine (θ_run Cert.ReferenceIdeal.defs _ _).mono (fun _ h c => ⟨(h c).1.trans ?_, (h c).2⟩)
    (Cert.ReferenceIdeal.RefValue.run m' ρ'
      (fun c j => by rw [(hagree c).1]; exact (hfin c).1 j)
      (fun c j => by rw [(hagree c).2.1]; exact (hfin c).2 j))
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
